-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x4096 .f32) (main_arg2 : FVec F S8x2048x4096 .f32) (main_arg3 : FVec F S8x4096x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg3
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_v13 main_v16
-- ==== Kernel.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S1x512x2048 : Shape := ⟨3, ![1, 512, 2048]⟩
abbrev S1x2048x256 : Shape := ⟨3, ![1, 2048, 256]⟩
abbrev S1x256x2048 : Shape := ⟨3, ![1, 256, 2048]⟩
abbrev S512x2048 : Shape := ⟨2, ![512, 2048]⟩
abbrev S2048x256 : Shape := ⟨2, ![2048, 256]⟩
abbrev S256x2048 : Shape := ⟨2, ![256, 2048]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x512x2048, .f32⟩
  | .local _ .vmem, ⟨9, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x4096.size a
  hwx0_1 : ∀ i : grid0.Coords, EltTy.bits .f32 = 32 ∨ (Rect.block (s := S8x2048x4096) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x4096.size a
  hwx0_2 : ∀ i : grid0.Coords, EltTy.bits .f32 = 32 ∨ (Rect.block (s := S8x2048x4096) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x2048_S8x2048x4096_S8x2048x4096_2_1_1_2_0_0_wf : DotDims.WF S8x2048x2048 S8x2048x4096 S8x2048x4096 [2] [1] [1] [2] [0] [0]
  dot_S8x2048x4096_S8x4096x2048_S8x2048x2048_2_1_1_2_0_0_wf : DotDims.WF S8x2048x4096 S8x4096x2048 S8x2048x2048 [2] [1] [1] [2] [0] [0]

variable [Facts₀]

def dot_S8x2048x2048_S8x2048x4096_S8x2048x4096_2_1_1_2_0_0 : DotDims S8x2048x2048 S8x2048x4096 S8x2048x4096 where
  lhsContracting := [2]
  rhsContracting := [1]
  lhsNonContracting := [1]
  rhsNonContracting := [2]
  lhsBatch := [0]
  rhsBatch := [0]
  wf := dot_S8x2048x2048_S8x2048x4096_S8x2048x4096_2_1_1_2_0_0_wf
def dot_S8x2048x4096_S8x4096x2048_S8x2048x2048_2_1_1_2_0_0 : DotDims S8x2048x4096 S8x4096x2048 S8x2048x2048 where
  lhsContracting := [2]
  rhsContracting := [1]
  lhsNonContracting := [1]
  rhsNonContracting := [2]
  lhsBatch := [0]
  rhsBatch := [0]
  wf := dot_S8x2048x4096_S8x4096x2048_S8x2048x2048_2_1_1_2_0_0_wf

class Facts : Prop extends Facts₀ where

variable [Facts]
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibUnitAxis.lean ====
/-
  A leading axis of extent one, at rank three.

  A [1, a, b] block viewed as an [a, b] array reads `(p, k)` at the block's entry `(0, p, k)`, and an [a, b] array
  viewed as a [1, a, b] block reads `(z, p, q)` at the array's entry `(p, q)`: the two reshapes every block of a
  rank-3 array cut one slab at a time goes through.  Stated at coordinates, for any element type.
-/
import Idealize.ShloMosaic.Lib.Pipeline.Value
import Idealize.ShloMosaic.Lib.ValueIdx

noncomputable section

namespace Cert.LibUnitAxis

open Idealize.ShloMosaic Idealize.ShloMosaic.ValueIdx

/-- A [1, a, b] block viewed as [a, b] reads `(p, k)` at `(0, p, k)`. -/
theorem dropUnit_apply {α : Type} {a b : ℕ} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 0 p k) :=
  (shapeCast_dropUnit_apply ![a, b] v h (ix2 p k)).trans (congrArg v (funext fun d => by
    match d with
    | ⟨0, _⟩ => rfl
    | ⟨1, _⟩ => rfl
    | ⟨2, _⟩ => rfl))

/-- An [a, b] array viewed as a [1, a, b] block reads `(z, p, q)` at `(p, q)`. -/
theorem addUnit_apply {α : Type} {a b : ℕ} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) :=
  (shapeCast_addUnit_apply ![a, b] v h (ix3 z p q)).trans (congrArg v (funext fun d => by
    match d with
    | ⟨0, _⟩ => rfl
    | ⟨1, _⟩ => rfl))

end Cert.LibUnitAxis

end
-- ==== Proof.LibRangeRuns.lean ====
/-
  A sum over consecutive natural numbers, taken run by run.

  The sum of `F` over the first `a · b` naturals is the sum, over the `a` consecutive runs of length `b`, of the sums
  of `F` over each run: `∑_{s < a} ∑_{j < b} F (b·s + j) = ∑_{n < a·b} F n`, in any additive commutative monoid.  A
  reduction that a program walks in equal consecutive chunks, adding each chunk's partial sum into an accumulator,
  is regrouped into the one sum by this.
-/
import Mathlib.Algebra.BigOperators.Intervals

open scoped BigOperators

namespace Cert.LibRangeRuns

/-- A sum over `a · b` consecutive naturals is the sum over its `a` consecutive runs of length `b`. -/
theorem sum_range_runs {β : Type*} [AddCommMonoid β] (b : ℕ) (F : ℕ → β) :
    ∀ a : ℕ, ∑ s ∈ Finset.range a, ∑ j ∈ Finset.range b, F (b * s + j) = ∑ n ∈ Finset.range (a * b), F n
  | 0 => by simp
  | a + 1 => by
    rw [Finset.sum_range_succ, sum_range_runs b F a, Nat.succ_mul, Finset.sum_range_add, Nat.mul_comm b a]

/-- The same with each run indexed by `Fin b`. -/
theorem sum_range_runs_fin {β : Type*} [AddCommMonoid β] (a b : ℕ) (F : ℕ → β) :
    ∑ s ∈ Finset.range a, ∑ j : Fin b, F (b * s + j.val) = ∑ n ∈ Finset.range (a * b), F n := by
  rw [← sum_range_runs b F a]
  exact Finset.sum_congr rfl fun s _ => Fin.sum_univ_eq_sum_range (fun j => F (b * s + j)) b

end Cert.LibRangeRuns
-- ==== Proof.Spec.lean ====
/-
  The function both programs compute, and the two facts about finite sums that join them.

  For each of 8 experts the layer takes a [2048, 2048] block of tokens `x`, two [2048, 4096] weight matrices
  `wg` (the gate branch) and `wd` (the linear branch) and a [4096, 2048] matrix `wu` that projects back:

      g = x · wg,   u = x · wd,   hidden = g · logistic g · u,   out = hidden · wu.

  Everything is read on the extended reals, where `logistic y` is `1 / (1 + exp (−y))` at every argument.  One
  entry of `out` is a sum over the 4096 hidden units.  A program that walks the hidden units in 16 consecutive runs of
  256 and adds each run's contribution into a tile that starts at zero computes the same entry: addition of extended
  reals is commutative and associative, and that is all the regrouping uses, so no entry has to be finite.
-/
import proofs.«122755_j51711406244127_2_alg».proof.Proof.LibRangeRuns
import Idealize.ShloMosaic.Lib.ValueIdx
import Idealize.ShloMosaic.PureOps.Ideal.Laws

noncomputable section

open scoped BigOperators

namespace Cert.GatedMlp

open Idealize.ShloMosaic Idealize.ShloMosaic.ValueIdx

/-- One hidden unit from its two pre-activations: the gate `g` through `y ↦ y · logistic y`, times the linear branch `u`. -/
def gated (g u : EReal) : EReal := g * Ideal.logistic g * u

/-- The hidden activation of expert `e` at token `r` and hidden unit `h`. -/
def activation (x : (⟨3, ![8, 2048, 2048]⟩ : Shape).Idx → EReal) (wg wd : (⟨3, ![8, 2048, 4096]⟩ : Shape).Idx → EReal)
    (e : Fin 8) (r : Fin 2048) (h : Fin 4096) : EReal :=
  gated (∑ k : Fin 2048, x (ix3 e r k) * wg (ix3 e k h)) (∑ k : Fin 2048, x (ix3 e r k) * wd (ix3 e k h))

/-- One term of an output entry: hidden unit `h`'s activation times its weight towards output feature `d`. -/
def term (x : (⟨3, ![8, 2048, 2048]⟩ : Shape).Idx → EReal) (wg wd : (⟨3, ![8, 2048, 4096]⟩ : Shape).Idx → EReal)
    (wu : (⟨3, ![8, 4096, 2048]⟩ : Shape).Idx → EReal) (e : Fin 8) (r : Fin 2048) (d : Fin 2048) (h : Fin 4096) : EReal :=
  activation x wg wd e r h * wu (ix3 e h d)

/-- THE LAYER: entry `(e, r, d)` of the output is the sum over the 4096 hidden units of their terms. -/
def out (x : (⟨3, ![8, 2048, 2048]⟩ : Shape).Idx → EReal) (wg wd : (⟨3, ![8, 2048, 4096]⟩ : Shape).Idx → EReal)
    (wu : (⟨3, ![8, 4096, 2048]⟩ : Shape).Idx → EReal) : (⟨3, ![8, 2048, 2048]⟩ : Shape).Idx → EReal :=
  fun i => ∑ h : Fin 4096, term x wg wd wu (i 0) (i 1) (i 2) h

/-- ONE TILE'S CONTRIBUTION: from a [1, 512, 2048] block of tokens, two [1, 2048, 256] blocks of the two branches'
    weights (256 hidden units) and the matching [1, 256, 2048] block of the projection, what those 256 hidden units
    add to the output tile at row `p` and column `q`. -/
def tile (x0 : (⟨3, ![1, 512, 2048]⟩ : Shape).Idx → EReal) (x1 x2 : (⟨3, ![1, 2048, 256]⟩ : Shape).Idx → EReal)
    (x3 : (⟨3, ![1, 256, 2048]⟩ : Shape).Idx → EReal) (p : Fin 512) (q : Fin 2048) : EReal :=
  ∑ h : Fin 256, gated (∑ k : Fin 2048, x0 (ix3 0 p k) * x1 (ix3 0 k h)) (∑ k : Fin 2048, x0 (ix3 0 p k) * x2 (ix3 0 k h))
    * x3 (ix3 0 h q)

/-- A function on the 4096 hidden units continued by zero to every natural number, so that sums over runs of
    naturals need no bound proofs. -/
def padded (T : Fin 4096 → EReal) (n : ℕ) : EReal := if h : n < 4096 then T ⟨n, h⟩ else 0

theorem padded_of_lt (T : Fin 4096 → EReal) (n : ℕ) (h : n < 4096) : padded T n = T ⟨n, h⟩ := dif_pos h

/-- THE REGROUPING: the sum over the 4096 hidden units is the sum over 16 runs of the sums over each run's 256 units. -/
theorem sum_units_eq_runs (T : Fin 4096 → EReal) :
    ∑ h : Fin 4096, T h = ∑ s ∈ Finset.range 16, ∑ j : Fin 256, padded T (256 * s + j.val) := by
  have e1 : ∑ h : Fin 4096, T h = ∑ h : Fin 4096, padded T h.val :=
    Finset.sum_congr rfl fun h _ => (padded_of_lt T h.val h.isLt).symm
  rw [e1, Fin.sum_univ_eq_sum_range (padded T) 4096]
  exact (Cert.LibRangeRuns.sum_range_runs_fin 16 256 (padded T)).symm

end Cert.GatedMlp

end
-- ==== Proof.Payload.lean ====
/-
  What the kernel body stores, read at one entry of the output tile.

  At a grid point the body holds a [1, 512, 2048] block of tokens, a [1, 2048, 256] block of each branch's weights,
  the matching [1, 256, 2048] block of the projection, and the output tile as the point before left it.  It forms the
  two [512, 256] products of the tokens with the two weight blocks, multiplies the gate product through
  `y ↦ y · logistic y` with the other product, multiplies that [512, 256] hidden block with the projection block,
  and adds the [512, 2048] result to the tile.  The narrowings to a 16-bit format in between are the identity on the
  extended reals, and the three products accumulate into zero.  So entry `(p, q)` of what is stored is the tile's
  old entry plus the contribution of these 256 hidden units, `GatedMlp.tile`.
-/
import proofs.«122755_j51711406244127_2_alg».proof.Proof.Gen.KernelIdeal.Skeleton
import proofs.«122755_j51711406244127_2_alg».proof.Proof.LibRowOps
import proofs.«122755_j51711406244127_2_alg».proof.Proof.LibUnitAxis
import proofs.«122755_j51711406244127_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GatedMlp Cert.LibUnitAxis

/-! ## The two shapes of matrix product in the body -/

/-- Tokens [512, 2048] times a weight block [2048, 256]: the left operand's row is the result's row, -/
theorem branch_l0 (j : S512x256.Idx) (q : dot_S512x2048_S2048x256_S512x256_1_0_0_1_n_n.contr.Idx) :
    (dot_S512x2048_S2048x256_S512x256_1_0_0_1_n_n.lhsIdx j q 0).val = (j 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
/-- its column the contracted coordinate, -/
theorem branch_l1 (j : S512x256.Idx) (q : dot_S512x2048_S2048x256_S512x256_1_0_0_1_n_n.contr.Idx) :
    (dot_S512x2048_S2048x256_S512x256_1_0_0_1_n_n.lhsIdx j q 1).val = (q ⟨0, by decide⟩).val :=
  dot_S512x2048_S2048x256_S512x256_1_0_0_1_n_n.lhsIdx_val_of_single rfl j q
/-- the right operand's row the contracted coordinate, -/
theorem branch_r0 (j : S512x256.Idx) (q : dot_S512x2048_S2048x256_S512x256_1_0_0_1_n_n.contr.Idx) :
    (dot_S512x2048_S2048x256_S512x256_1_0_0_1_n_n.rhsIdx j q 0).val = (q ⟨0, by decide⟩).val :=
  dot_S512x2048_S2048x256_S512x256_1_0_0_1_n_n.rhsIdx_val_of_single rfl j q
/-- and its column the result's column. -/
theorem branch_r1 (j : S512x256.Idx) (q : dot_S512x2048_S2048x256_S512x256_1_0_0_1_n_n.contr.Idx) :
    (dot_S512x2048_S2048x256_S512x256_1_0_0_1_n_n.rhsIdx j q 1).val = (j 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The hidden block [512, 256] times the projection block [256, 2048]: the same four facts. -/
theorem proj_l0 (j : S512x2048.Idx) (q : dot_S512x256_S256x2048_S512x2048_1_0_0_1_n_n.contr.Idx) :
    (dot_S512x256_S256x2048_S512x2048_1_0_0_1_n_n.lhsIdx j q 0).val = (j 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem proj_l1 (j : S512x2048.Idx) (q : dot_S512x256_S256x2048_S512x2048_1_0_0_1_n_n.contr.Idx) :
    (dot_S512x256_S256x2048_S512x2048_1_0_0_1_n_n.lhsIdx j q 1).val = (q ⟨0, by decide⟩).val :=
  dot_S512x256_S256x2048_S512x2048_1_0_0_1_n_n.lhsIdx_val_of_single rfl j q
theorem proj_r0 (j : S512x2048.Idx) (q : dot_S512x256_S256x2048_S512x2048_1_0_0_1_n_n.contr.Idx) :
    (dot_S512x256_S256x2048_S512x2048_1_0_0_1_n_n.rhsIdx j q 0).val = (q ⟨0, by decide⟩).val :=
  dot_S512x256_S256x2048_S512x2048_1_0_0_1_n_n.rhsIdx_val_of_single rfl j q
theorem proj_r1 (j : S512x2048.Idx) (q : dot_S512x256_S256x2048_S512x2048_1_0_0_1_n_n.contr.Idx) :
    (dot_S512x256_S256x2048_S512x2048_1_0_0_1_n_n.rhsIdx j q 1).val = (j 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

/-- One branch's pre-activation at row `p` and hidden unit `h` of the block: the row of tokens against the unit's
    column of weights. -/
theorem branch_apply (x0 : Vec Ideal S1x512x2048 .f32) (w : Vec Ideal S1x2048x256 .f32) (p : Fin 512) (h : Fin 256) :
    matmul (F := Ideal) dot_S512x2048_S2048x256_S512x256_1_0_0_1_n_n none
        (truncf (F := Ideal) .bf16 (shapeCast S512x2048 x0 Facts₀.shapeCasts_S1x512x2048_S512x2048) Facts₀.bitsLt_bf16_f32)
        (truncf (F := Ideal) .bf16 (shapeCast S2048x256 w Facts₀.shapeCasts_S1x2048x256_S2048x256) Facts₀.bitsLt_bf16_f32)
        (constant (F := Ideal) S512x256 .f32 0x00000000#32) (ix2 p h)
      = ∑ k : Fin 2048, x0 (ix3 0 p k) * w (ix3 0 k h) :=
  (Cert.LibRowOps.matmul_zero_apply dot_S512x2048_S2048x256_S512x256_1_0_0_1_n_n none _ _ rfl rfl
      branch_l0 branch_l1 branch_r0 branch_r1 p h).trans
    (Finset.sum_congr rfl fun k _ => congrArg₂ (· * ·) (dropUnit_apply x0 _ p k) (dropUnit_apply w _ k h))

/-- The hidden block at `(p, h)` from the two pre-activations there. -/
theorem hidden_apply (G U : FVec Ideal S512x256 .f32) (p : Fin 512) (h : Fin 256) (sg su : EReal)
    (hg : G (ix2 p h) = sg) (hu : U (ix2 p h) = su) :
    (truncf (F := Ideal) .bf16 (mulf (mulf G (logistic G)) U) Facts₀.bitsLt_bf16_f32 : FVec Ideal S512x256 .bf16) (ix2 p h) = gated sg su := by
  subst hg; subst hu; rfl

/-- THE STORE at entry `(p, q)` of the tile: the tile's entry as the body found it, plus what this point's 256 hidden
    units contribute. -/
theorem store_apply (x0 : Vec Ideal S1x512x2048 .f32) (x1 x2 : Vec Ideal S1x2048x256 .f32) (x3 : Vec Ideal S1x256x2048 .f32)
    (acc : Vec Ideal S1x512x2048 .f32) (p : Fin 512) (q : Fin 2048) :
    k0_pay2 (F := Ideal) x0 x1 x2 x3 acc (ix3 0 p q) = acc (ix3 0 p q) + tile x0 x1 x2 x3 p q := by
  unfold k0_pay2
  refine (addUnit_apply _ _ 0 p q).trans ?_
  refine congrArg₂ (· + ·) (dropUnit_apply acc _ p q) ?_
  refine (Cert.LibRowOps.matmul_zero_apply dot_S512x256_S256x2048_S512x2048_1_0_0_1_n_n none _ _ rfl rfl
      proj_l0 proj_l1 proj_r0 proj_r1 p q).trans ?_
  unfold tile
  refine Finset.sum_congr rfl fun h _ => ?_
  exact congrArg₂ (· * ·) (hidden_apply _ _ p h _ _ (branch_apply x0 x1 p h) (branch_apply x0 x2 p h))
    (dropUnit_apply x3 _ h q)

/-- The tile the first point of a run starts from is zero everywhere. -/
theorem zero_apply (y : S1x512x2048.Idx) : k0_pay1 (F := Ideal) y = 0 := by
  unfold k0_pay1
  obtain ⟨z, p, q, rfl⟩ : ∃ (z : Fin 1) (p : Fin 512) (q : Fin 2048), y = ix3 z p q := ⟨y 0, y 1, y 2, eq_ix3 y⟩
  refine (addUnit_apply _ _ z p q).trans ?_
  exact Ideal.ofBits_zero_f32

end Cert.KernelIdeal.Body

end
-- ==== Proof.Blocks.lean ====
/-
  Where each input block sits in its array.

  The grid is (expert, token tile, hidden tile) = (8, 4, 16), walked with the hidden tile fastest: point `t` is
  expert `t / 64`, token tile `t / 16 % 4`, hidden tile `t % 16`.  At that point the body sees

    * tokens  `x [e, 512·ti .. 512·ti + 511, :]`,
    * weights `wg[e, :, 256·n .. 256·n + 255]` and the same columns of `wd`,
    * and the rows `wu[e, 256·n .. 256·n + 255, :]` of the projection,

  so a block's entry is the array's entry at the block's offset plus the place inside the block.  With these, the
  contribution of the point's 256 hidden units to row `p` of its token tile is the sum of the layer's terms over the
  hidden units `256·n + j`.
-/
import proofs.«122755_j51711406244127_2_alg».proof.Proof.Gen.KernelIdeal.Frame
import proofs.«122755_j51711406244127_2_alg».proof.Proof.Spec
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
  Idealize.ShloMosaic.ValueIdx Cert.GatedMlp

variable (m : (ℓ : Loc nD τ sig) → Buf (Elt Ideal) ℓ)

/-! ## The printed index maps, decided over the 512 grid points -/

/-- The token window's block index at point `t`: (expert, token tile, 0). -/
theorem tokens_index : ∀ t : Fin cfg0.N, win0_0.index t (0 : Fin 3) = t.val / 64
    ∧ win0_0.index t (1 : Fin 3) = t.val / 16 % 4 ∧ win0_0.index t (2 : Fin 3) = 0 :=
  (by decide +kernel : ∀ t : Fin grid0.N, _)

/-- The gate weights' block index: (expert, 0, hidden tile). -/
theorem gate_index : ∀ t : Fin cfg0.N, win0_1.index t (0 : Fin 3) = t.val / 64
    ∧ win0_1.index t (1 : Fin 3) = 0 ∧ win0_1.index t (2 : Fin 3) = t.val % 16 :=
  (by decide +kernel : ∀ t : Fin grid0.N, _)

/-- The linear branch's weights: the same. -/
theorem linear_index : ∀ t : Fin cfg0.N, win0_2.index t (0 : Fin 3) = t.val / 64
    ∧ win0_2.index t (1 : Fin 3) = 0 ∧ win0_2.index t (2 : Fin 3) = t.val % 16 :=
  (by decide +kernel : ∀ t : Fin grid0.N, _)

/-- The projection's block index: (expert, hidden tile, 0). -/
theorem proj_index : ∀ t : Fin cfg0.N, win0_3.index t (0 : Fin 3) = t.val / 64
    ∧ win0_3.index t (1 : Fin 3) = t.val % 16 ∧ win0_3.index t (2 : Fin 3) = 0 :=
  (by decide +kernel : ∀ t : Fin grid0.N, _)

/-! ## Each block read at an entry -/

/-- The token block at point `t`, entry `(0, p, k)`: token `512·ti + p` of expert `e`, feature `k`. -/
theorem tokens_read (c : Dev nD) (t : Fin cfg0.N) (p : Fin 512) (k : Fin 2048) (e : Fin 8) (r : Fin 2048)
    (he : e.val = t.val / 64) (hr : r.val = 512 * (t.val / 16 % 4) + p.val) :
    (iblk m c 0 t : Vec Ideal S1x512x2048 .f32) (ix3 0 p k) = m ((c : Thread nD τ).loc main_arg0) (ix3 e r k) := by
  obtain ⟨f0, f1, f2⟩ := tokens_index t
  show V m c main_arg0 (((cfg0.win 0).blk t).view.emb (ix3 0 p k)) = _
  refine congrArg (m ((c : Thread nD τ).loc main_arg0)) (funext fun a => Fin.ext ?_)
  match a with
  | ⟨0, _⟩ => show win0_0.index t (0 : Fin 3) * 1 + 1 * 0 = e.val; omega
  | ⟨1, _⟩ => show win0_0.index t (1 : Fin 3) * 512 + 1 * p.val = r.val; omega
  | ⟨2, _⟩ => show win0_0.index t (2 : Fin 3) * 2048 + 1 * k.val = k.val; omega

/-- The gate weights' block at point `t`, entry `(0, k, j)`: feature `k` towards hidden unit `256·n + j`. -/
theorem gate_read (c : Dev nD) (t : Fin cfg0.N) (k : Fin 2048) (j : Fin 256) (e : Fin 8) (h : Fin 4096)
    (he : e.val = t.val / 64) (hh : h.val = 256 * (t.val % 16) + j.val) :
    (iblk m c 1 t : Vec Ideal S1x2048x256 .f32) (ix3 0 k j) = m ((c : Thread nD τ).loc main_arg1) (ix3 e k h) := by
  obtain ⟨f0, f1, f2⟩ := gate_index t
  show V m c main_arg1 (((cfg0.win 1).blk t).view.emb (ix3 0 k j)) = _
  refine congrArg (m ((c : Thread nD τ).loc main_arg1)) (funext fun a => Fin.ext ?_)
  match a with
  | ⟨0, _⟩ => show win0_1.index t (0 : Fin 3) * 1 + 1 * 0 = e.val; omega
  | ⟨1, _⟩ => show win0_1.index t (1 : Fin 3) * 2048 + 1 * k.val = k.val; omega
  | ⟨2, _⟩ => show win0_1.index t (2 : Fin 3) * 256 + 1 * j.val = h.val; omega

/-- The linear branch's block, likewise. -/
theorem linear_read (c : Dev nD) (t : Fin cfg0.N) (k : Fin 2048) (j : Fin 256) (e : Fin 8) (h : Fin 4096)
    (he : e.val = t.val / 64) (hh : h.val = 256 * (t.val % 16) + j.val) :
    (iblk m c 2 t : Vec Ideal S1x2048x256 .f32) (ix3 0 k j) = m ((c : Thread nD τ).loc main_arg2) (ix3 e k h) := by
  obtain ⟨f0, f1, f2⟩ := linear_index t
  show V m c main_arg2 (((cfg0.win 2).blk t).view.emb (ix3 0 k j)) = _
  refine congrArg (m ((c : Thread nD τ).loc main_arg2)) (funext fun a => Fin.ext ?_)
  match a with
  | ⟨0, _⟩ => show win0_2.index t (0 : Fin 3) * 1 + 1 * 0 = e.val; omega
  | ⟨1, _⟩ => show win0_2.index t (1 : Fin 3) * 2048 + 1 * k.val = k.val; omega
  | ⟨2, _⟩ => show win0_2.index t (2 : Fin 3) * 256 + 1 * j.val = h.val; omega

/-- The projection's block at point `t`, entry `(0, j, q)`: hidden unit `256·n + j` towards output feature `q`. -/
theorem proj_read (c : Dev nD) (t : Fin cfg0.N) (j : Fin 256) (q : Fin 2048) (e : Fin 8) (h : Fin 4096) (d : Fin 2048)
    (he : e.val = t.val / 64) (hh : h.val = 256 * (t.val % 16) + j.val) (hd : d.val = q.val) :
    (iblk m c 3 t : Vec Ideal S1x256x2048 .f32) (ix3 0 j q) = m ((c : Thread nD τ).loc main_arg3) (ix3 e h d) := by
  obtain ⟨f0, f1, f2⟩ := proj_index t
  show V m c main_arg3 (((cfg0.win 3).blk t).view.emb (ix3 0 j q)) = _
  refine congrArg (m ((c : Thread nD τ).loc main_arg3)) (funext fun a => Fin.ext ?_)
  match a with
  | ⟨0, _⟩ => show win0_3.index t (0 : Fin 3) * 1 + 1 * 0 = e.val; omega
  | ⟨1, _⟩ => show win0_3.index t (1 : Fin 3) * 256 + 1 * j.val = h.val; omega
  | ⟨2, _⟩ => show win0_3.index t (2 : Fin 3) * 2048 + 1 * q.val = d.val; omega

/-! ## One point's contribution, in the arrays' own coordinates -/

/-- What point `t`'s 256 hidden units add at row `p`, column `q` of its tile: the layer's terms of token `r` of
    expert `e` towards output feature `d`, over the hidden units `256·s + j`, where `s` is the point's hidden tile. -/
theorem tile_at (c : Dev nD) (t : Fin cfg0.N) (p : Fin 512) (q : Fin 2048) (e : Fin 8) (r : Fin 2048) (d : Fin 2048) (s : ℕ)
    (he : e.val = t.val / 64) (hr : r.val = 512 * (t.val / 16 % 4) + p.val) (hd : d.val = q.val) (hs : s = t.val % 16) :
    tile (iblk m c 0 t) (iblk m c 1 t) (iblk m c 2 t) (iblk m c 3 t) p q
      = ∑ j : Fin 256, padded (term (m ((c : Thread nD τ).loc main_arg0)) (m ((c : Thread nD τ).loc main_arg1))
          (m ((c : Thread nD τ).loc main_arg2)) (m ((c : Thread nD τ).loc main_arg3)) e r d) (256 * s + j.val) := by
  unfold tile
  refine Finset.sum_congr rfl fun j _ => ?_
  have hlt : 256 * s + j.val < 4096 := by have := j.isLt; omega
  rw [padded_of_lt _ _ hlt]
  unfold term activation
  have hh : (⟨256 * s + j.val, hlt⟩ : Fin 4096).val = 256 * (t.val % 16) + j.val := by
    show 256 * s + j.val = 256 * (t.val % 16) + j.val
    omega
  exact congrArg₂ (· * ·)
    (congrArg₂ gated
      (Finset.sum_congr rfl fun k _ => congrArg₂ (· * ·) (tokens_read m c t p k e r he hr) (gate_read m c t k j e _ he hh))
      (Finset.sum_congr rfl fun k _ => congrArg₂ (· * ·) (tokens_read m c t p k e r he hr) (linear_read m c t k j e _ he hh)))
    (proj_read m c t j q e _ d he hh hd)

end Cert.KernelIdeal.Blocks

end
-- ==== Proof.Fold.lean ====
/-
  The array the kernel leaves is the layer of its arguments.

  Output entry `(e, r, d)` lies in the tile of expert `e` and token tile `r / 512`, which the 16 consecutive grid
  points `16·(4e + r / 512) + s`, `s = 0 … 15`, work on: the first stores zero plus its own contribution, each later
  one adds its contribution to what the point before left, and the last one's tile is written back.  So the entry is
  the sum over `s` of point `s`'s contribution at row `r % 512`, column `d`.  Point `s` contributes the layer's
  terms of the hidden units `256·s … 256·s + 255`, and the 16 runs together are all 4096 hidden units: the entry is
  `GatedMlp.out` at `(e, r, d)`.  Only commutativity and associativity of the extended reals' addition are used.
-/
import proofs.«122755_j51711406244127_2_alg».proof.Proof.Gen.KernelIdeal.Value
import proofs.«122755_j51711406244127_2_alg».proof.Proof.Payload
import proofs.«122755_j51711406244127_2_alg».proof.Proof.Blocks
import proofs.«122755_j51711406244127_2_alg».proof.Proof.Spec
import Idealize.ShloMosaic.Lib.Pipeline.Value
import Idealize.ShloMosaic.Lib.ValueIdx

noncomputable section

open scoped BigOperators

namespace Cert.KernelIdeal.Fold

open Cert.KernelIdeal Cert.KernelIdeal.Gen Idealize.ShloMosaic Idealize.ShloMosaic.TcCoe Idealize.SL.Sem
  Idealize.ShloMosaic.ValueIdx Cert.GatedMlp

variable (m : (ℓ : Loc nD τ sig) → Buf (Elt Ideal) ℓ)

/-- What grid point `n` adds to its tile at a place `y` of the tile: its 256 hidden units' contribution there
    (zero past the grid, where no point is). -/
def addend (c : Dev nD) (n : ℕ) (y : S1x512x2048.Idx) : EReal :=
  if h : n < cfg0.N then
    tile (iblk m c 0 ⟨n, h⟩) (iblk m c 1 ⟨n, h⟩) (iblk m c 2 ⟨n, h⟩) (iblk m c 3 ⟨n, h⟩) (y 1) (y 2)
  else 0

/-- The first point of a run stores zero plus its contribution. -/
theorem reset_apply (c : Dev nD) (n : ℕ) (h : n < cfg0.N) (y : S1x512x2048.Idx) :
    Value.reset4 m c n h y = 0 + addend m c n y := by
  obtain ⟨z, p, q, rfl⟩ : ∃ (z : Fin 1) (p : Fin 512) (q : Fin 2048), y = ix3 z p q := ⟨y 0, y 1, y 2, eq_ix3 y⟩
  obtain rfl : z = 0 := Subsingleton.elim z 0
  unfold Value.reset4 addend
  rw [dif_pos h]
  exact (Body.store_apply _ _ _ _ _ p q).trans (congrArg (· + _) (Body.zero_apply _))

/-- Every later point adds its contribution to what the point before left. -/
theorem step_apply (c : Dev nD) (n : ℕ) (h : n < cfg0.N) (acc : Vec Ideal S1x512x2048 .f32) (y : S1x512x2048.Idx) :
    Value.step4 m c n h acc y = acc y + addend m c n y := by
  obtain ⟨z, p, q, rfl⟩ : ∃ (z : Fin 1) (p : Fin 512) (q : Fin 2048), y = ix3 z p q := ⟨y 0, y 1, y 2, eq_ix3 y⟩
  obtain rfl : z = 0 := Subsingleton.elim z 0
  unfold Value.step4 addend
  rw [dif_pos h]
  exact Body.store_apply _ _ _ _ acc p q

/-- A whole run's fold, at a place of the tile: the sum of its 16 points' contributions there. -/
theorem run_apply (c : Dev nD) (b : ℕ) (h : b + 15 < cfg0.N) (y : S1x512x2048.Idx) :
    Pipeline.accAt (Value.reset4 m c) (Value.step4 m c) b 15 h y = ∑ s ∈ Finset.range 16, addend m c (b + s) y :=
  (Pipeline.accAt_add_apply (Value.reset4 m c) (Value.step4 m c) (fun _ => (0 : EReal)) (addend m c) b 15
    (fun hb y => reset_apply m c b hb y) (fun n hn acc y _ _ => step_apply m c n hn acc y) 15 le_rfl h y).trans (zero_add _)

/-- THE KERNEL'S RESULT ARRAY is the layer of the four argument arrays. -/
theorem result_eq (c : Dev nD) :
    Value.G4 m c = out (m ((c : Thread nD τ).loc main_arg0)) (m ((c : Thread nD τ).loc main_arg1))
      (m ((c : Thread nD τ).loc main_arg2)) (m ((c : Thread nD τ).loc main_arg3)) := by
  funext i
  obtain ⟨e, r, d, rfl⟩ : ∃ (e : Fin 8) (r : Fin 2048) (d : Fin 2048), i = ix3 e r d := ⟨i 0, i 1, i 2, eq_ix3 i⟩
  have he := e.isLt
  have hr := r.isLt
  have hd := d.isLt
  have hN : cfg0.N = 512 := N_0
  have hrun : Value.run4Of (ix3 e r d) = 4 * e.val + r.val / 512 := by
    show 4 * (e.val / 1 - 0) + 1 * (r.val / 512 - 0) + 1 * (d.val / 2048 - 0) = _
    omega
  have hfit : 16 * Value.run4Of (ix3 e r d) + 15 < cfg0.N := by rw [hrun, hN]; omega
  unfold Value.G4
  rw [dif_pos hfit, run_apply]
  unfold out
  rw [sum_units_eq_runs]
  show (_ : EReal) = _
  refine Finset.sum_congr rfl fun s hs => ?_
  have hs16 : s < 16 := Finset.mem_range.mp hs
  have hlt : 16 * Value.run4Of (ix3 e r d) + s < cfg0.N := by rw [hrun, hN]; omega
  unfold addend
  rw [dif_pos hlt]
  exact Blocks.tile_at m c ⟨16 * Value.run4Of (ix3 e r d) + s, hlt⟩ ⟨r.val % 512, Nat.mod_lt _ (by decide)⟩
    ⟨d.val % 2048, Nat.mod_lt _ (by decide)⟩ e r d s
    (by show e.val = (16 * Value.run4Of (ix3 e r d) + s) / 64; rw [hrun]; omega)
    (by show r.val = 512 * ((16 * Value.run4Of (ix3 e r d) + s) / 16 % 4) + r.val % 512; rw [hrun]; omega)
    (by show d.val = d.val % 2048; omega)
    (by show s = (16 * Value.run4Of (ix3 e r d) + s) % 16; omega)

end Cert.KernelIdeal.Fold

end
-- ==== Proof.LibLogistic.lean ====
/-
  The logistic function written out as a quotient, on the extended reals.

  Array programs often spell the logistic function as `1 / (1 + exp (−y))`, a negation, an exponential, a sum and a
  quotient, with each `1` given as the binary32 word `0x3F800000`.  On the extended reals that expression IS the
  logistic function at every argument, the two infinities included (`−∞ ↦ 0`, `+∞ ↦ 1`): the word denotes the number
  one, and the quotient, the sum and the exponential are the exact ones.  No finiteness is asked of `y`.
-/
import Idealize.ShloMosaic.PureOps.Ideal

noncomputable section

namespace Cert.LibLogistic

open Idealize.ShloMosaic

/-- The binary32 word of `1.0` denotes the extended real `1`. -/
theorem one_word : Ideal.ofBits .f32 0x3F800000#32 = 1 := by
  simp [Ideal.ofBits, Ideal.ieee, -EReal.coe_mul]; norm_num

/-- `1 / (1 + exp (−y))` with both `1`s given by their binary32 word is the logistic function of `y`, for every
    extended real `y`. -/
theorem logistic_spelt (y : EReal) :
    Ideal.div (Ideal.ofBits .f32 0x3F800000#32) (Ideal.ofBits .f32 0x3F800000#32 + Ideal.exp (-y)) = Ideal.logistic y := by
  rw [one_word]; rfl

end Cert.LibLogistic

end
-- ==== Proof.Ref.lean ====
/-
  The reference computes the layer.

  The reference is two batched products `g = x · wg` and `u = x · wd`, the gate's activation spelt out as
  `g · (1 / (1 + exp (−g)))`, the product with `u`, and one batched product with `wu`.  Read at an index each batched
  product is a sum over its contracted coordinate at fixed expert, and the spelt-out quotient is the logistic function
  on the extended reals, so entry `(e, r, d)` of the result is the sum over the 4096 hidden units of
  `GatedMlp.term`: the reference's result is `GatedMlp.out` of its four arguments.
-/
import proofs.«122755_j51711406244127_2_alg».proof.Proof.Gen.ReferenceIdeal.Read
import proofs.«122755_j51711406244127_2_alg».proof.Proof.LibLogistic
import proofs.«122755_j51711406244127_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.GatedMlp

/-- A branch's pre-activation at `(e, r, h)`: the sum over the input feature `k` of token `(e, r, k)` times weight
    `(e, k, h)`. -/
theorem gate_apply (x0 : (⟨S8x2048x2048, .f32⟩ : BufTy).Contents (Elt Ideal)) (x1 : (⟨S8x2048x4096, .f32⟩ : BufTy).Contents (Elt Ideal))
    (e : Fin 8) (r : Fin 2048) (h : Fin 4096) :
    val_main_v0 (F := Ideal) x0 x1 (ix3 e r h) = ∑ k : Fin 2048, x0 (ix3 e r k) * x1 (ix3 e k h) :=
  (val_main_v0_apply x0 x1 (ix3 e r h)).trans (Finset.sum_congr rfl fun k _ => congrArg₂ (· * ·)
    (congrArg x0 (funext fun a => by match a with | ⟨0, _⟩ => rfl | ⟨1, _⟩ => rfl | ⟨2, _⟩ => rfl))
    (congrArg x1 (funext fun a => by match a with | ⟨0, _⟩ => rfl | ⟨1, _⟩ => rfl | ⟨2, _⟩ => rfl)))

theorem linear_apply (x0 : (⟨S8x2048x2048, .f32⟩ : BufTy).Contents (Elt Ideal)) (x2 : (⟨S8x2048x4096, .f32⟩ : BufTy).Contents (Elt Ideal))
    (e : Fin 8) (r : Fin 2048) (h : Fin 4096) :
    val_main_v1 (F := Ideal) x0 x2 (ix3 e r h) = ∑ k : Fin 2048, x0 (ix3 e r k) * x2 (ix3 e k h) :=
  (val_main_v1_apply x0 x2 (ix3 e r h)).trans (Finset.sum_congr rfl fun k _ => congrArg₂ (· * ·)
    (congrArg x0 (funext fun a => by match a with | ⟨0, _⟩ => rfl | ⟨1, _⟩ => rfl | ⟨2, _⟩ => rfl))
    (congrArg x2 (funext fun a => by match a with | ⟨0, _⟩ => rfl | ⟨1, _⟩ => rfl | ⟨2, _⟩ => rfl)))

/-- The hidden stage at an index, from the two pre-activations there: the quotient `1 / (1 + exp (−g))` is the
    logistic function of `g`. -/
theorem hidden_stage (x0 : (⟨S8x2048x2048, .f32⟩ : BufTy).Contents (Elt Ideal)) (x1 x2 : (⟨S8x2048x4096, .f32⟩ : BufTy).Contents (Elt Ideal))
    (j : S8x2048x4096.Idx) :
    val_main_v3 (F := Ideal) x0 x1 x2 j = gated (val_main_v0 (F := Ideal) x0 x1 j) (val_main_v1 (F := Ideal) x0 x2 j) := by
  rw [val_main_v3_apply, val_main_v2_apply, val_main_call0_v5_apply, val_main_call0_v4_apply, val_main_call0_cst_0_apply,
    val_main_call0_v3_apply, val_main_call0_v2_apply, val_main_call0_cst_apply, val_main_call0_v1_apply, val_main_call0_v0_apply]
  unfold gated
  rw [← Cert.LibLogistic.logistic_spelt]
  rfl

/-- THE REFERENCE'S RESULT is the layer of its arguments. -/
theorem result_eq (x0 : (⟨S8x2048x2048, .f32⟩ : BufTy).Contents (Elt Ideal)) (x1 x2 : (⟨S8x2048x4096, .f32⟩ : BufTy).Contents (Elt Ideal))
    (x3 : (⟨S8x4096x2048, .f32⟩ : BufTy).Contents (Elt Ideal)) :
    val_main_v4 (F := Ideal) x0 x1 x2 x3 = out x0 x1 x2 x3 := by
  funext i
  obtain ⟨e, r, d, rfl⟩ : ∃ (e : Fin 8) (r : Fin 2048) (d : Fin 2048), i = ix3 e r d := ⟨i 0, i 1, i 2, eq_ix3 i⟩
  rw [val_main_v4_apply]
  unfold out
  refine Finset.sum_congr rfl fun h _ => ?_
  unfold term activation
  have el : lidx_main_v4 (ix3 e r d) h = ix3 e r h :=
    funext fun a => by match a with | ⟨0, _⟩ => rfl | ⟨1, _⟩ => rfl | ⟨2, _⟩ => rfl
  have er : ridx_main_v4 (ix3 e r d) h = ix3 e h d :=
    funext fun a => by match a with | ⟨0, _⟩ => rfl | ⟨1, _⟩ => rfl | ⟨2, _⟩ => rfl
  rw [el, er, hidden_stage, gate_apply, linear_apply]

end Cert.ReferenceIdeal.RefValue

end
-- ==== Proof.lean ====
/-
  A gated two-branch feed-forward layer, batched over 8 experts, computed tile by tile, against the same layer written
  as three batched matrix products.

  For each expert, with tokens `x` [2048, 2048], branch weights `wg`, `wd` [2048, 4096] and a projection `wu`
  [4096, 2048],

      out = ((x · wg) · logistic (x · wg) · (x · wd)) · wu        (the middle products entry by entry).

  The kernel never forms the [2048, 4096] hidden activation.  It walks a grid (expert, token tile of 512, hidden tile
  of 256); at a point it multiplies a token tile with the 256 matching columns of both branches' weights, forms those
  256 hidden units, multiplies them with the 256 matching rows of the projection, and adds the result into the output
  tile, which the first hidden tile starts from zero and the last one writes back.  The reference spells the logistic
  function as `1 / (1 + exp (−y))` and contracts over all 4096 hidden units at once.

  On the extended reals the narrowings to a 16-bit format are the identity, the spelt-out quotient is the logistic
  function at every argument, and an output entry is a finite sum over the hidden units, which may be taken in 16
  consecutive runs of 256 because addition is commutative and associative.  Nothing here distributes a product over a
  sum or cancels, so the equality holds at infinite entries too and the proof never opens the finiteness precondition.

  The modules: `Spec` (the layer as one function of the four arrays, one tile's contribution, the regrouping of the
  sum), `Payload` (what the body stores, at an entry), `Blocks` (where each block sits in its array), `Fold` (the
  array the kernel leaves is the layer), `Ref` (so is the reference's result).  The kernel's run with its output array
  as the fold over each run of 16 points, the reference's run and its operations read at an index are generated modules.
-/
import proofs.«122755_j51711406244127_2_alg».proof.Defs
import proofs.«122755_j51711406244127_2_alg».proof.Proof.Gen.Kernel.Frame
import proofs.«122755_j51711406244127_2_alg».proof.Proof.Gen.KernelIdeal.Value
import proofs.«122755_j51711406244127_2_alg».proof.Proof.Gen.Pre_finite_inputs
import proofs.«122755_j51711406244127_2_alg».proof.Proof.Gen.ReferenceIdeal.Run
import proofs.«122755_j51711406244127_2_alg».proof.Proof.Gen.ReferenceIdeal.Read
import proofs.«122755_j51711406244127_2_alg».proof.Proof.Fold
import proofs.«122755_j51711406244127_2_alg».proof.Proof.Ref
import Idealize.ShloMosaic.Adequacy
import Idealize.ShloMosaic.Init

noncomputable section

namespace Cert.Proof

open Idealize.ShloMosaic Idealize.SL.Sem

/-- The idealized kernel runs and leaves its arguments as they were: its value run, with the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments in their
    result: the kernel's array by `Fold.result_eq`, the reference's by `RefValue.result_eq`. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.KernelIdeal.Fold.result_eq m c]
  exact (Cert.ReferenceIdeal.Read.val_main_v4_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
